-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S8x256x256 : Shape := ⟨3, ![8, 256, 256]⟩
abbrev S8x256 : Shape := ⟨2, ![8, 256]⟩
abbrev S8x256x128 : Shape := ⟨3, ![8, 256, 128]⟩
abbrev S8x128 : Shape := ⟨2, ![8, 128]⟩
abbrev S8x65536x2 : Shape := ⟨3, ![8, 65536, 2]⟩
abbrev S8x65536 : Shape := ⟨2, ![8, 65536]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S8x256 : S_.BroadcastsInDim S8x256 (![] : Fin 0 → Fin S8x256.rank)
  reducesTo_S8x256_S_d0_1 : S8x256.ReducesTo [0, 1] S_
  bcast_S_S8x256x128 : S_.BroadcastsInDim S8x256x128 (![] : Fin 0 → Fin S8x256x128.rank)
  reducesTo_S8x256x128_S_d0_1_2 : S8x256x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128 .f32) (main_v13 : IVec S_ 1) (main_v16 : IVec S8x256x128 1) : IVec S_ 1 :=
  let main_c_5 : IVec S_ 1 := constantI S_ 1 1#1
  let main_v17 : IVec S_ 1 := (fun x v => Host.reduce IntOp.andi x v reducesTo_S8x256x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  main_v23

def fn {F : FTy → Type} [FloatOps F] (main_arg0 : FVec F S1000000x128 .f32) (main_arg1 : FVec F S8x256x256 .f32) (main_arg2 : FVec F S8x256 .f32) (main_arg3 : FVec F S8x256x128 .f32) (main_arg4 : FVec F S8x128 .f32) (main_arg5 : IVec S8x65536x2 32) (main_arg6 : IVec S8x65536 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S8x256x128 .f32 := Host.absf main_arg3
  let main_cst_4 : FVec F S_ .f32 := constant S_ .f32 0x7F800000#32
  let main_v15 : FVec F S8x256x128 .f32 := broadcastInDim S8x256x128 ![] bcast_S_S8x256x128 main_cst_4
  let main_v16 : IVec S8x256x128 1 := cmpf .olt main_v14 main_v15
  fn_part1 (F := F) main_arg4 main_v13 main_v16
-- ==== Kernel.lean ====
abbrev S1000000x128 : Shape := ⟨2, ![1000000, 128]⟩
abbrev S8x256x256 : Shape := ⟨3, ![8, 256, 256]⟩
abbrev S8x256 : Shape := ⟨2, ![8, 256]⟩
abbrev S8x256x128 : Shape := ⟨3, ![8, 256, 128]⟩
abbrev S8x128 : Shape := ⟨2, ![8, 128]⟩
abbrev S8x65536x2 : Shape := ⟨3, ![8, 65536, 2]⟩
abbrev S8x65536 : Shape := ⟨2, ![8, 65536]⟩
abbrev S_ : Shape := ⟨0, ![]⟩
abbrev S8x65536x2x1 : Shape := ⟨4, ![8, 65536, 2, 1]⟩
abbrev S8x65536x2x128 : Shape := ⟨4, ![8, 65536, 2, 128]⟩
abbrev S8x65536x256 : Shape := ⟨3, ![8, 65536, 256]⟩
abbrev S8x1x256 : Shape := ⟨3, ![8, 1, 256]⟩
abbrev S8x1x128 : Shape := ⟨3, ![8, 1, 128]⟩
abbrev S8x65536x128 : Shape := ⟨3, ![8, 65536, 128]⟩
abbrev S1x4096x256 : Shape := ⟨3, ![1, 4096, 256]⟩
abbrev S1x256x256 : Shape := ⟨3, ![1, 256, 256]⟩
abbrev S1x1x256 : Shape := ⟨3, ![1, 1, 256]⟩
abbrev S1x256x128 : Shape := ⟨3, ![1, 256, 128]⟩
abbrev S1x1x128 : Shape := ⟨3, ![1, 1, 128]⟩
abbrev S1x4096x128 : Shape := ⟨3, ![1, 4096, 128]⟩
abbrev S4096x256 : Shape := ⟨2, ![4096, 256]⟩
abbrev S256x256 : Shape := ⟨2, ![256, 256]⟩
abbrev S1x256 : Shape := ⟨2, ![1, 256]⟩
abbrev S256x128 : Shape := ⟨2, ![256, 128]⟩
abbrev S1x128 : Shape := ⟨2, ![1, 128]⟩
abbrev S4096x128 : Shape := ⟨2, ![4096, 128]⟩
abbrev S524288x128 : Shape := ⟨2, ![524288, 128]⟩
abbrev S524288 : Shape := ⟨1, ![524288]⟩
abbrev S524288x1 : Shape := ⟨2, ![524288, 1]⟩

abbrev nBuf : Space → Nat
  | .hbm => 34
  | .vmem => 12
  | .smem => 0
  | _ => 0

abbrev bufTy : (tb : Table) → Fin (tcTables nBuf tb) → BufTy
  | .hbm, ⟨0, _⟩ => ⟨S1000000x128, .f32⟩
  | .hbm, ⟨1, _⟩ => ⟨S8x256x256, .f32⟩
  | .hbm, ⟨2, _⟩ => ⟨S8x256, .f32⟩
  | .hbm, ⟨3, _⟩ => ⟨S8x256x128, .f32⟩
  | .hbm, ⟨4, _⟩ => ⟨S8x128, .f32⟩
  | .hbm, ⟨5, _⟩ => ⟨S8x65536x2, .i32⟩
  | .hbm, ⟨6, _⟩ => ⟨S8x65536, .i32⟩
  | .hbm, ⟨7, _⟩ => ⟨S_, .i32⟩
  | .hbm, ⟨8, _⟩ => ⟨S8x65536x2, .i32⟩
  | .hbm, ⟨9, _⟩ => ⟨S8x65536x2, .i1⟩
  | .hbm, ⟨10, _⟩ => ⟨S_, .i32⟩
  | .hbm, ⟨11, _⟩ => ⟨S8x65536x2, .i32⟩
  | .hbm, ⟨12, _⟩ => ⟨S8x65536x2, .i32⟩
  | .hbm, ⟨13, _⟩ => ⟨S8x65536x2, .i32⟩
  | .hbm, ⟨14, _⟩ => ⟨S8x65536x2x1, .i32⟩
  | .hbm, ⟨15, _⟩ => ⟨S8x65536x2x128, .f32⟩
  | .hbm, ⟨16, _⟩ => ⟨S8x65536x256, .f32⟩
  | .hbm, ⟨17, _⟩ => ⟨S8x65536x256, .bf16⟩
  | .hbm, ⟨18, _⟩ => ⟨S8x256x256, .bf16⟩
  | .hbm, ⟨19, _⟩ => ⟨S8x256x128, .bf16⟩
  | .hbm, ⟨20, _⟩ => ⟨S8x1x256, .f32⟩
  | .hbm, ⟨21, _⟩ => ⟨S8x1x128, .f32⟩
  | .hbm, ⟨22, _⟩ => ⟨S8x65536x128, .f32⟩
  | .hbm, ⟨23, _⟩ => ⟨S524288x128, .f32⟩
  | .hbm, ⟨24, _⟩ => ⟨S524288, .i32⟩
  | .hbm, ⟨25, _⟩ => ⟨S_, .i32⟩
  | .hbm, ⟨26, _⟩ => ⟨S524288, .i32⟩
  | .hbm, ⟨27, _⟩ => ⟨S524288, .i1⟩
  | .hbm, ⟨28, _⟩ => ⟨S_, .i32⟩
  | .hbm, ⟨29, _⟩ => ⟨S524288, .i32⟩
  | .hbm, ⟨30, _⟩ => ⟨S524288, .i32⟩
  | .hbm, ⟨31, _⟩ => ⟨S524288, .i32⟩
  | .hbm, ⟨32, _⟩ => ⟨S524288x1, .i32⟩
  | .hbm, ⟨33, _⟩ => ⟨S1000000x128, .f32⟩
  | .local _ .vmem, ⟨0, _⟩ => ⟨S1x4096x256, .bf16⟩
  | .local _ .vmem, ⟨1, _⟩ => ⟨S1x4096x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x1x256, .f32⟩
  | .local _ .vmem, ⟨5, _⟩ => ⟨S1x1x256, .f32⟩
  | .local _ .vmem, ⟨6, _⟩ => ⟨S1x256x128, .bf16⟩
  | .local _ .vmem, ⟨7, _⟩ => ⟨S1x256x128, .bf16⟩
  | .local _ .vmem, ⟨8, _⟩ => ⟨S1x1x128, .f32⟩
  | .local _ .vmem, ⟨9, _⟩ => ⟨S1x1x128, .f32⟩
  | .local _ .vmem, ⟨10, _⟩ => ⟨S1x4096x128, .f32⟩
  | .local _ .vmem, ⟨11, _⟩ => ⟨S1x4096x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x65536x2 : S_.BroadcastsInDim S8x65536x2 (![] : Fin 0 → Fin S8x65536x2.rank)
  bcast_S8x65536x2_S8x65536x2x1_0_1_2 : S8x65536x2.BroadcastsInDim S8x65536x2x1 (![0, 1, 2] : Fin 3 → Fin S8x65536x2x1.rank)
  shapeCasts_S8x65536x2x128_S8x65536x256 : S8x65536x2x128.ShapeCasts S8x65536x256
  bitsLt_bf16_f32 : FTy.bits .bf16 < FTy.bits .f32
  shapeCasts_S8x256_S8x1x256 : S8x256.ShapeCasts S8x1x256
  shapeCasts_S8x128_S8x1x128 : S8x128.ShapeCasts S8x1x128
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x256_S4096x256 : S1x256.Broadcasts S4096x256
  broadcasts_S1x128_S4096x128 : S1x128.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  shapeCasts_S8x65536x128_S524288x128 : S8x65536x128.ShapeCasts S524288x128
  shapeCasts_S8x65536_S524288 : S8x65536.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  gather_S1000000x128_S8x65536x2x1_S8x65536x2x128_3_0_n_n_0_3_1128_wf : GatherDims.WF S1000000x128 S8x65536x2x1 S8x65536x2x128 [3] [0] [] [0] [] 3 ![1, 128]
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  scatter_S1000000x128_S524288x1_S524288x128_1_0_0_1_wf : ScatterDims.WF S1000000x128 S524288x1 S524288x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x65536x256.size a
  hwx0_0 : ∀ i : grid0.Coords, EltTy.bits .bf16 = 32 ∨ (Rect.block (s := S8x65536x256) S1x4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x256.size a
  hwx0_1 : ∀ i : grid0.Coords, EltTy.bits .bf16 = 32 ∨ (Rect.block (s := S8x256x256) S1x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .f32 = 32 ∨ (Rect.block (s := S8x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S8x256x128.size a
  hwx0_3 : ∀ i : grid0.Coords, EltTy.bits .bf16 = 32 ∨ (Rect.block (s := S8x256x128) S1x256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S8x65536x128.size a
  hwx0_5 : ∀ i : grid0.Coords, EltTy.bits .f32 = 32 ∨ (Rect.block (s := S8x65536x128) S1x4096x128.size (cc0_transform_5 i) (hinb0_5 i)).WholeWords (EltTy.packing .f32)

variable [Facts₀]

def gather_S1000000x128_S8x65536x2x1_S8x65536x2x128_3_0_n_n_0_3_1128 : GatherDims S1000000x128 S8x65536x2x1 S8x65536x2x128 where
  offsetDims := [3]
  collapsedSliceDims := [0]
  operandBatchingDims := []
  startIndicesBatchingDims := []
  startIndexMap := [0]
  indexVectorDim := 3
  sliceSizes := ![1, 128]
  wf := gather_S1000000x128_S8x65536x2x1_S8x65536x2x128_3_0_n_n_0_3_1128_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def scatter_S1000000x128_S524288x1_S524288x128_1_0_0_1 : ScatterDims S1000000x128 S524288x1 S524288x128 where
  updateWindowDims := [1]
  insertedWindowDims := [0]
  scatterDimsToOperandDims := [0]
  indexVectorDim := 1
  wf := scatter_S1000000x128_S524288x1_S524288x128_1_0_0_1_wf

abbrev win0_0 : Pipeline.Window sig grid0 :=
  Pipeline.Window.ofSpec (Memref.whole main_v8) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S8x256x256 : Shape := ⟨3, ![8, 256, 256]⟩
abbrev S8x256 : Shape := ⟨2, ![8, 256]⟩
abbrev S8x256x128 : Shape := ⟨3, ![8, 256, 128]⟩
abbrev S8x128 : Shape := ⟨2, ![8, 128]⟩
abbrev S8x65536x2 : Shape := ⟨3, ![8, 65536, 2]⟩
abbrev S8x65536 : Shape := ⟨2, ![8, 65536]⟩
abbrev S_ : Shape := ⟨0, ![]⟩
abbrev S8x65536x2x1 : Shape := ⟨4, ![8, 65536, 2, 1]⟩
abbrev S8x65536x2x128 : Shape := ⟨4, ![8, 65536, 2, 128]⟩
abbrev S8x65536x256 : Shape := ⟨3, ![8, 65536, 256]⟩
abbrev S8x1x256 : Shape := ⟨3, ![8, 1, 256]⟩
abbrev S8x65536x128 : Shape := ⟨3, ![8, 65536, 128]⟩
abbrev S8x1x128 : Shape := ⟨3, ![8, 1, 128]⟩
abbrev S524288 : Shape := ⟨1, ![524288]⟩
abbrev S524288x128 : Shape := ⟨2, ![524288, 128]⟩
abbrev S524288x1 : Shape := ⟨2, ![524288, 1]⟩

abbrev nBuf : Space → Nat
  | .hbm => 39
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S8x256x256, .f32⟩
  | .hbm, ⟨2, _⟩ => ⟨S8x256, .f32⟩
  | .hbm, ⟨3, _⟩ => ⟨S8x256x128, .f32⟩
  | .hbm, ⟨4, _⟩ => ⟨S8x128, .f32⟩
  | .hbm, ⟨5, _⟩ => ⟨S8x65536x2, .i32⟩
  | .hbm, ⟨6, _⟩ => ⟨S8x65536, .i32⟩
  | .hbm, ⟨7, _⟩ => ⟨S_, .i32⟩
  | .hbm, ⟨8, _⟩ => ⟨S8x65536x2, .i32⟩
  | .hbm, ⟨9, _⟩ => ⟨S8x65536x2, .i1⟩
  | .hbm, ⟨10, _⟩ => ⟨S_, .i32⟩
  | .hbm, ⟨11, _⟩ => ⟨S8x65536x2, .i32⟩
  | .hbm, ⟨12, _⟩ => ⟨S8x65536x2, .i32⟩
  | .hbm, ⟨13, _⟩ => ⟨S8x65536x2, .i32⟩
  | .hbm, ⟨14, _⟩ => ⟨S8x65536x2x1, .i32⟩
  | .hbm, ⟨15, _⟩ => ⟨S8x65536x2x128, .f32⟩
  | .hbm, ⟨16, _⟩ => ⟨S8x65536x256, .f32⟩
  | .hbm, ⟨17, _⟩ => ⟨S8x65536x256, .f32⟩
  | .hbm, ⟨18, _⟩ => ⟨S8x1x256, .f32⟩
  | .hbm, ⟨19, _⟩ => ⟨S8x65536x256, .f32⟩
  | .hbm, ⟨20, _⟩ => ⟨S8x65536x256, .f32⟩
  | .hbm, ⟨21, _⟩ => ⟨S_, .f32⟩
  | .hbm, ⟨22, _⟩ => ⟨S8x65536x256, .f32⟩
  | .hbm, ⟨23, _⟩ => ⟨S8x65536x256, .f32⟩
  | .hbm, ⟨24, _⟩ => ⟨S8x65536x128, .f32⟩
  | .hbm, ⟨25, _⟩ => ⟨S8x1x128, .f32⟩
  | .hbm, ⟨26, _⟩ => ⟨S8x65536x128, .f32⟩
  | .hbm, ⟨27, _⟩ => ⟨S8x65536x128, .f32⟩
  | .hbm, ⟨28, _⟩ => ⟨S524288, .i32⟩
  | .hbm, ⟨29, _⟩ => ⟨S524288x128, .f32⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S8x65536x2 : S_.BroadcastsInDim S8x65536x2 (![] : Fin 0 → Fin S8x65536x2.rank)
  bcast_S8x65536x2_S8x65536x2x1_0_1_2 : S8x65536x2.BroadcastsInDim S8x65536x2x1 (![0, 1, 2] : Fin 3 → Fin S8x65536x2x1.rank)
  shapeCasts_S8x65536x2x128_S8x65536x256 : S8x65536x2x128.ShapeCasts S8x65536x256
  bcast_S8x256_S8x1x256_0_2 : S8x256.BroadcastsInDim S8x1x256 (![0, 2] : Fin 2 → Fin S8x1x256.rank)
  bcast_S8x1x256_S8x65536x256_0_1_2 : S8x1x256.BroadcastsInDim S8x65536x256 (![0, 1, 2] : Fin 3 → Fin S8x65536x256.rank)
  bcast_S_S8x65536x256 : S_.BroadcastsInDim S8x65536x256 (![] : Fin 0 → Fin S8x65536x256.rank)
  bcast_S8x128_S8x1x128_0_2 : S8x128.BroadcastsInDim S8x1x128 (![0, 2] : Fin 2 → Fin S8x1x128.rank)
  bcast_S8x1x128_S8x65536x128_0_1_2 : S8x1x128.BroadcastsInDim S8x65536x128 (![0, 1, 2] : Fin 3 → Fin S8x65536x128.rank)
  shapeCasts_S8x65536_S524288 : S8x65536.ShapeCasts S524288
  shapeCasts_S8x65536x128_S524288x128 : S8x65536x128.ShapeCasts S524288x128
  bcast_S_S524288 : S_.BroadcastsInDim S524288 (![] : Fin 0 → Fin S524288.rank)
  bcast_S524288_S524288x1_0 : S524288.BroadcastsInDim S524288x1 (![0] : Fin 1 → Fin S524288x1.rank)
  gather_S1000000x128_S8x65536x2x1_S8x65536x2x128_3_0_n_n_0_3_1128_wf : GatherDims.WF S1000000x128 S8x65536x2x1 S8x65536x2x128 [3] [0] [] [0] [] 3 ![1, 128]
  dot_S8x65536x256_S8x256x256_S8x65536x256_2_1_1_2_0_0_wf : DotDims.WF S8x65536x256 S8x256x256 S8x65536x256 [2] [1] [1] [2] [0] [0]
  dot_S8x65536x256_S8x256x128_S8x65536x128_2_1_1_2_0_0_wf : DotDims.WF S8x65536x256 S8x256x128 S8x65536x128 [2] [1] [1] [2] [0] [0]
  scatter_S1000000x128_S524288x1_S524288x128_1_0_0_1_wf : ScatterDims.WF S1000000x128 S524288x1 S524288x128 [1] [0] [0] 1

variable [Facts₀]

def gather_S1000000x128_S8x65536x2x1_S8x65536x2x128_3_0_n_n_0_3_1128 : GatherDims S1000000x128 S8x65536x2x1 S8x65536x2x128 where
  offsetDims := [3]
  collapsedSliceDims := [0]
  operandBatchingDims := []
  startIndicesBatchingDims := []
  startIndexMap := [0]
  indexVectorDim := 3
  sliceSizes := ![1, 128]
  wf := gather_S1000000x128_S8x65536x2x1_S8x65536x2x128_3_0_n_n_0_3_1128_wf
def dot_S8x65536x256_S8x256x256_S8x65536x256_2_1_1_2_0_0 : DotDims S8x65536x256 S8x256x256 S8x65536x256 where
  lhsContracting := [2]
  rhsContracting := [1]
  lhsNonContracting := [1]
  rhsNonContracting := [2]
  lhsBatch := [0]
  rhsBatch := [0]
  wf := dot_S8x65536x256_S8x256x256_S8x65536x256_2_1_1_2_0_0_wf
def dot_S8x65536x256_S8x256x128_S8x65536x128_2_1_1_2_0_0 : DotDims S8x65536x256 S8x256x128 S8x65536x128 where
  lhsContracting := [2]
  rhsContracting := [1]
  lhsNonContracting := [1]
  rhsNonContracting := [2]
  lhsBatch := [0]
  rhsBatch := [0]
  wf := dot_S8x65536x256_S8x256x128_S8x65536x128_2_1_1_2_0_0_wf
def scatter_S1000000x128_S524288x1_S524288x128_1_0_0_1 : ScatterDims S1000000x128 S524288x1 S524288x128 where
  updateWindowDims := [1]
  insertedWindowDims := [0]
  scatterDimsToOperandDims := [0]
  indexVectorDim := 1
  wf := scatter_S1000000x128_S524288x1_S524288x128_1_0_0_1_wf

class Facts : Prop extends Facts₀ where

variable [Facts]
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.MlpSpec.lean ====
/-
  The two-layer perceptron, one group at a time, over the extended reals.

  For a group `t`, a row `r` of that group's input matrix `x t`, and an output feature `g`:
    hiddenAt t r f = max (∑ₑ x t r e · w1 t e f + b1 t f) 0        (256 hidden features `f`, 256 inputs `e`)
    mlpAt    t r g = ∑_f hiddenAt t r f · w2 t f g + b2 t g         (128 output features `g`)
  Every array is taken as a function of its coordinates, so that a program which keeps the biases as
  `[8, 1, 256]` and one which keeps them as `[8, 256]` are both instances of the same function.
  The zero of the rectifier is kept as the float word `0x00000000` read as an extended real: both programs
  spell it so, and it is never evaluated.
-/
import Idealize.ShloMosaic.Lib.ValueIdx
import Idealize.ShloMosaic.PureOps.Ideal.Laws

noncomputable section

open scoped BigOperators

namespace Cert.Mlp

open Idealize.ShloMosaic Idealize.ShloMosaic.ValueIdx

/-- The rectifier's threshold: the all-zero f32 word as an extended real. -/
abbrev zeroWord : EReal := Ideal.ofBits .f32 0x00000000#32

/-- Hidden feature `f` of row `r` of group `t`: the rectified affine image of the row. -/
def hiddenAt (x : Fin 8 → Fin 65536 → Fin 256 → EReal) (w1 : Fin 8 → Fin 256 → Fin 256 → EReal)
    (b1 : Fin 8 → Fin 256 → EReal) (t : Fin 8) (r : Fin 65536) (f : Fin 256) : EReal :=
  max ((∑ e : Fin 256, x t r e * w1 t e f) + b1 t f) zeroWord

/-- Output feature `g` of row `r` of group `t`: the affine image of the hidden row. -/
def mlpAt (x : Fin 8 → Fin 65536 → Fin 256 → EReal) (w1 : Fin 8 → Fin 256 → Fin 256 → EReal)
    (b1 : Fin 8 → Fin 256 → EReal) (w2 : Fin 8 → Fin 256 → Fin 128 → EReal) (b2 : Fin 8 → Fin 128 → EReal)
    (t : Fin 8) (r : Fin 65536) (g : Fin 128) : EReal :=
  (∑ f : Fin 256, hiddenAt x w1 b1 t r f * w2 t f g) + b2 t g

/-- The perceptron's output as one `[8, 65536, 128]` array. -/
def mlp (x : Fin 8 → Fin 65536 → Fin 256 → EReal) (w1 : Fin 8 → Fin 256 → Fin 256 → EReal)
    (b1 : Fin 8 → Fin 256 → EReal) (w2 : Fin 8 → Fin 256 → Fin 128 → EReal) (b2 : Fin 8 → Fin 128 → EReal) :
    (⟨3, ![8, 65536, 128]⟩ : Shape).Idx → EReal :=
  fun i => mlpAt x w1 b1 w2 b2 (i 0) (i 1) (i 2)

theorem mlp_ix3 (x : Fin 8 → Fin 65536 → Fin 256 → EReal) (w1 : Fin 8 → Fin 256 → Fin 256 → EReal)
    (b1 : Fin 8 → Fin 256 → EReal) (w2 : Fin 8 → Fin 256 → Fin 128 → EReal) (b2 : Fin 8 → Fin 128 → EReal)
    (t : Fin 8) (r : Fin 65536) (g : Fin 128) :
    mlp x w1 b1 w2 b2 (ix3 t r g) = mlpAt x w1 b1 w2 b2 t r g := rfl

end Cert.Mlp

end
-- ==== Proof.KernelPayload.lean ====
/-
  What the kernel body stores, read at an index.

  The body loads one `[1, 4096, 256]` block of rows, the group's two weight matrices and its two bias rows,
  drops the leading unit axes, multiplies the rows by the first weights into a zero accumulator, adds the
  first bias to every row, rectifies, multiplies by the second weights into a zero accumulator, adds the second
  bias to every row, and restores the unit axis. Over the extended reals a change of float format is the identity
  and a product into the zero matrix is the plain sum over the contracted axis, so entry `(0, p, q)` of the stored
  block is
    ∑_f max (∑ₑ rows (0,p,e) · W1 (0,e,f) + b1 (0,0,f)) 0 · W2 (0,f,q) + b2 (0,0,q).
-/
import proofs.«135676_j24068996726969_1_alg».proof.Proof.Gen.KernelIdeal.Skeleton
import proofs.«135676_j24068996726969_1_alg».proof.Proof.LibPlainMatmul
import proofs.«135676_j24068996726969_1_alg».proof.Proof.MlpSpec
import Idealize.ShloMosaic.Lib.ValueLayout

noncomputable section

open scoped BigOperators

namespace Cert.KernelIdeal.Payload

open Cert.KernelIdeal Cert.KernelIdeal.Gen Idealize.ShloMosaic Idealize.ShloMosaic.ValueIdx Cert.Mlp

/-- The rectified hidden block at `(p, f)`: the first product's sum, the bias row, the maximum with the zero word;
    the rounding to the narrower format is the identity. -/
theorem hidden_apply (v1 : FVec Ideal S4096x256 .bf16) (v3 : FVec Ideal S256x256 .bf16) (v5 : FVec Ideal S1x256 .f32)
    (p : Fin 4096) (f : Fin 256) :
    (truncf .bf16 (maximumf (addf (matmul dot_S4096x256_S256x256_S4096x256_1_0_0_1_n_n none v1 v3 (constant S4096x256 .f32 0x00000000#32))
        (broadcastTo S4096x256 v5 broadcasts_S1x256_S4096x256)) (broadcast S4096x256 (Scalar.ofBits (F := Ideal) .f32 0x00000000#32)))
      bitsLt_bf16_f32 : FVec Ideal S4096x256 .bf16) (ix2 p f)
      = max ((∑ e : Fin 256, v1 (ix2 p e) * v3 (ix2 e f)) + v5 (ix2 (0 : Fin 1) f)) zeroWord := by
  rw [truncf_apply, maximumf_apply, addf_apply, broadcast_apply, broadcastTo_1b_ab_apply]
  exact congrArg (fun s => max (s + v5 (ix2 (0 : Fin 1) f)) zeroWord)
    (PlainMatmul.matmul_zero_apply dot_S4096x256_S256x256_S4096x256_1_0_0_1_n_n rfl rfl rfl rfl rfl rfl none v1 v3 p f)

/-- The output block before the unit axis is restored, at `(p, q)`. -/
theorem out_apply (v15 : FVec Ideal S4096x256 .bf16) (v7 : FVec Ideal S256x128 .bf16) (v9 : FVec Ideal S1x128 .f32)
    (p : Fin 4096) (q : Fin 128) :
    (addf (matmul dot_S4096x256_S256x128_S4096x128_1_0_0_1_n_n none v15 v7 (constant S4096x128 .f32 0x00000000#32))
        (broadcastTo S4096x128 v9 broadcasts_S1x128_S4096x128) : FVec Ideal S4096x128 .f32) (ix2 p q)
      = (∑ f : Fin 256, v15 (ix2 p f) * v7 (ix2 f q)) + v9 (ix2 (0 : Fin 1) q) := by
  rw [addf_apply, broadcastTo_1b_ab_apply]
  exact congrArg (fun s => s + v9 (ix2 (0 : Fin 1) q))
    (PlainMatmul.matmul_zero_apply dot_S4096x256_S256x128_S4096x128_1_0_0_1_n_n rfl rfl rfl rfl rfl rfl none v15 v7 p q)

/-- ENTRY `(u, p, q)` OF THE STORED BLOCK, from the loaded blocks. -/
theorem pay_apply (v0 : Vec Ideal S1x4096x256 .bf16) (v2 : Vec Ideal S1x256x256 .bf16) (v4 : Vec Ideal S1x1x256 .f32)
    (v6 : Vec Ideal S1x256x128 .bf16) (v8 : Vec Ideal S1x1x128 .f32) (u : Fin 1) (p : Fin 4096) (q : Fin 128) :
    k0_pay1 (F := Ideal) v0 v2 v4 v6 v8 (ix3 u p q)
      = (∑ f : Fin 256, max ((∑ e : Fin 256, v0 (ix3 (0 : Fin 1) p e) * v2 (ix3 (0 : Fin 1) e f)) + v4 (ix3 (0 : Fin 1) (0 : Fin 1) f)) zeroWord
            * v6 (ix3 (0 : Fin 1) f q)) + v8 (ix3 (0 : Fin 1) (0 : Fin 1) q) := by
  unfold k0_pay1
  refine (shapeCast_ab_1ab_apply _ shapeCasts_S4096x128_S1x4096x128 u p q).trans ?_
  refine (out_apply _ _ _ p q).trans ?_
  refine congrArg₂ (· + ·) (Finset.sum_congr rfl fun f _ => congrArg₂ (· * ·) ?_ ?_) ?_
  · refine (hidden_apply _ _ _ p f).trans ?_
    refine congrArg (fun s => max s zeroWord) (congrArg₂ (· + ·) (Finset.sum_congr rfl fun e _ => congrArg₂ (· * ·) ?_ ?_) ?_)
    · exact shapeCast_1ab_ab_apply v0 shapeCasts_S1x4096x256_S4096x256 p e
    · exact shapeCast_1ab_ab_apply v2 shapeCasts_S1x256x256_S256x256 e f
    · exact shapeCast_1ab_ab_apply v4 shapeCasts_S1x1x256_S1x256 (0 : Fin 1) f
  · exact shapeCast_1ab_ab_apply v6 shapeCasts_S1x256x128_S256x128 f q
  · exact shapeCast_1ab_ab_apply v8 shapeCasts_S1x1x128_S1x128 (0 : Fin 1) q

end Cert.KernelIdeal.Payload

end
-- ==== Proof.KernelBlocks.lean ====
/-
  From the blocks the grid points write back to the whole output array.

  The grid has 8 × 16 points; point `t` works on group `t / 16` and on rows `(t % 16) · 4096 … + 4095` of that
  group. Its input blocks are those rows of the row array, and the group's weight matrices and bias rows; its
  output block is the same rows of the output array. What it writes back is therefore a block of ONE whole-array
  function, the perceptron of the five arrays the windows read, and since the 128 output blocks tile the output
  array, that array ends holding the perceptron everywhere.
-/
import proofs.«135676_j24068996726969_1_alg».proof.Proof.Gen.KernelIdeal.Frame
import proofs.«135676_j24068996726969_1_alg».proof.Proof.KernelPayload
import Idealize.ShloMosaic.Lib.Pipeline.Value

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Mlp

variable (m : (ℓ : Loc nD τ sig) → Buf (Elt Ideal) ℓ) (ρ : Dev nD → PrngReg)

theorem hz : (![0, 0, 0] : Fin 3 → Nat) = fun _ => 0 := funext fun a => by fin_cases a <;> rfl

/-- Row `p` of the `b`-th block of 4096 rows. -/
def row (b : Fin 16) (p : Fin 4096) : Fin 65536 := ⟨b.val * 4096 + p.val, by have := b.isLt; have := p.isLt; omega⟩

/-- The output array as a function of the five arrays the windows read: the perceptron, with the biases kept as
    `[8, 1, ·]` arrays. -/
def G (X : S8x65536x256.Idx → Elt Ideal .bf16) (W1 : S8x256x256.Idx → Elt Ideal .bf16) (B1 : S8x1x256.Idx → Elt Ideal .f32)
    (W2 : S8x256x128.Idx → Elt Ideal .bf16) (B2 : S8x1x128.Idx → Elt Ideal .f32) : S8x65536x128.Idx → Elt Ideal .f32 :=
  mlp (fun t r e => X (ix3 t r e)) (fun t e f => W1 (ix3 t e f)) (fun t f => B1 (ix3 t (0 : Fin 1) f))
    (fun t f g => W2 (ix3 t f g)) (fun t g => B2 (ix3 t (0 : Fin 1) g))

/-- The printed index maps over the 128 grid points: every window's group is `t / 16`; the row windows (input rows,
    output rows) are at row block `t % 16`; every other block index is zero. -/
theorem idx_facts : ∀ t : Fin cfg0.N,
    win0_5.index t (0 : Fin 3) = t.val / 16 ∧ win0_5.index t (1 : Fin 3) = t.val % 16 ∧ win0_5.index t (2 : Fin 3) = 0
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-! ## Each input block, read in the array the region finds -/

theorem rows_apply (c : Dev nD) (t : Fin cfg0.N) (T : Fin 8) (b : Fin 16) (hT : t.val / 16 = T.val) (hb : t.val % 16 = b.val) (p : Fin 4096) (e : Fin 256) :
    (iblk m c 0 t : Vec Ideal S1x4096x256 .bf16) (ix3 (0 : Fin 1) p e)
      = (V m c main_v8 : S8x65536x256.Idx → Elt Ideal .bf16) (ix3 T (row b p) e) := by
  obtain ⟨-, -, -, e0, e1, e2, -, -, -, -, -, -, -, -, -, -, -, -⟩ := idx_facts t
  unfold iblk
  rw [View.read_apply]
  show V m c main_v8 _ = V m c main_v8 _
  refine congrArg (V m c main_v8) (funext fun a => Fin.ext ?_)
  match a with
  | ⟨0, _⟩ => show win0_0.index t (0 : Fin 3) * 1 + 1 * (0 : Nat) = T.val; omega
  | ⟨1, _⟩ => show win0_0.index t (1 : Fin 3) * 4096 + 1 * p.val = b.val * 4096 + p.val; omega
  | ⟨2, _⟩ => show win0_0.index t (2 : Fin 3) * 256 + 1 * e.val = e.val; omega

theorem w1_apply (c : Dev nD) (t : Fin cfg0.N) (T : Fin 8) (b : Fin 16) (hT : t.val / 16 = T.val) (hb : t.val % 16 = b.val) (e : Fin 256) (f : Fin 256) :
    (iblk m c 1 t : Vec Ideal S1x256x256 .bf16) (ix3 (0 : Fin 1) e f)
      = (V m c main_v9 : S8x256x256.Idx → Elt Ideal .bf16) (ix3 T e f) := by
  obtain ⟨-, -, -, -, -, -, e0, e1, e2, -, -, -, -, -, -, -, -, -⟩ := idx_facts t
  unfold iblk
  rw [View.read_apply]
  show V m c main_v9 _ = V m c main_v9 _
  refine congrArg (V m c main_v9) (funext fun a => Fin.ext ?_)
  match a with
  | ⟨0, _⟩ => show win0_1.index t (0 : Fin 3) * 1 + 1 * (0 : Nat) = T.val; omega
  | ⟨1, _⟩ => show win0_1.index t (1 : Fin 3) * 256 + 1 * e.val = e.val; omega
  | ⟨2, _⟩ => show win0_1.index t (2 : Fin 3) * 256 + 1 * f.val = f.val; omega

theorem b1_apply (c : Dev nD) (t : Fin cfg0.N) (T : Fin 8) (b : Fin 16) (hT : t.val / 16 = T.val) (hb : t.val % 16 = b.val) (f : Fin 256) :
    (iblk m c 2 t : Vec Ideal S1x1x256 .f32) (ix3 (0 : Fin 1) (0 : Fin 1) f)
      = (V m c main_v11 : S8x1x256.Idx → Elt Ideal .f32) (ix3 T (0 : Fin 1) f) := by
  obtain ⟨-, -, -, -, -, -, -, -, -, e0, e1, e2, -, -, -, -, -, -⟩ := idx_facts t
  unfold iblk
  rw [View.read_apply]
  show V m c main_v11 _ = V m c main_v11 _
  refine congrArg (V m c main_v11) (funext fun a => Fin.ext ?_)
  match a with
  | ⟨0, _⟩ => show win0_2.index t (0 : Fin 3) * 1 + 1 * (0 : Nat) = T.val; omega
  | ⟨1, _⟩ => show win0_2.index t (1 : Fin 3) * 1 + 1 * (0 : Nat) = 0; omega
  | ⟨2, _⟩ => show win0_2.index t (2 : Fin 3) * 256 + 1 * f.val = f.val; omega

theorem w2_apply (c : Dev nD) (t : Fin cfg0.N) (T : Fin 8) (b : Fin 16) (hT : t.val / 16 = T.val) (hb : t.val % 16 = b.val) (f : Fin 256) (q : Fin 128) :
    (iblk m c 3 t : Vec Ideal S1x256x128 .bf16) (ix3 (0 : Fin 1) f q)
      = (V m c main_v10 : S8x256x128.Idx → Elt Ideal .bf16) (ix3 T f q) := by
  obtain ⟨-, -, -, -, -, -, -, -, -, -, -, -, e0, e1, e2, -, -, -⟩ := idx_facts t
  unfold iblk
  rw [View.read_apply]
  show V m c main_v10 _ = V m c main_v10 _
  refine congrArg (V m c main_v10) (funext fun a => Fin.ext ?_)
  match a with
  | ⟨0, _⟩ => show win0_3.index t (0 : Fin 3) * 1 + 1 * (0 : Nat) = T.val; omega
  | ⟨1, _⟩ => show win0_3.index t (1 : Fin 3) * 256 + 1 * f.val = f.val; omega
  | ⟨2, _⟩ => show win0_3.index t (2 : Fin 3) * 128 + 1 * q.val = q.val; omega

theorem b2_apply (c : Dev nD) (t : Fin cfg0.N) (T : Fin 8) (b : Fin 16) (hT : t.val / 16 = T.val) (hb : t.val % 16 = b.val) (q : Fin 128) :
    (iblk m c 4 t : Vec Ideal S1x1x128 .f32) (ix3 (0 : Fin 1) (0 : Fin 1) q)
      = (V m c main_v12 : S8x1x128.Idx → Elt Ideal .f32) (ix3 T (0 : Fin 1) q) := by
  obtain ⟨-, -, -, -, -, -, -, -, -, -, -, -, -, -, -, e0, e1, e2⟩ := idx_facts t
  unfold iblk
  rw [View.read_apply]
  show V m c main_v12 _ = V m c main_v12 _
  refine congrArg (V m c main_v12) (funext fun a => Fin.ext ?_)
  match a with
  | ⟨0, _⟩ => show win0_4.index t (0 : Fin 3) * 1 + 1 * (0 : Nat) = T.val; omega
  | ⟨1, _⟩ => show win0_4.index t (1 : Fin 3) * 1 + 1 * (0 : Nat) = 0; omega
  | ⟨2, _⟩ => show win0_4.index t (2 : Fin 3) * 128 + 1 * q.val = q.val; omega

/-! ## What a point writes back -/

/-- The element `(u, p, q)` of point `t`'s output block sits at `(t / 16, (t % 16) · 4096 + p, q)` in the output array. -/
theorem out_emb (t : Fin cfg0.N) (T : Fin 8) (b : Fin 16) (hT : t.val / 16 = T.val) (hb : t.val % 16 = b.val)
    (u : Fin 1) (p : Fin 4096) (q : Fin 128) :
    ((cfg0.win 5).blk t).view.emb (ix3 u p q) = (ix3 T (row b p) q : S8x65536x128.Idx) := by
  obtain ⟨e0, e1, e2, -⟩ := idx_facts t
  have hu := u.isLt
  funext a
  apply Fin.ext
  match a with
  | ⟨0, _⟩ => show win0_5.index t (0 : Fin 3) * 1 + 1 * u.val = T.val; omega
  | ⟨1, _⟩ => show win0_5.index t (1 : Fin 3) * 4096 + 1 * p.val = b.val * 4096 + p.val; omega
  | ⟨2, _⟩ => show win0_5.index t (2 : Fin 3) * 128 + 1 * q.val = q.val; omega

/-- WHAT POINT `t` WRITES BACK is block `t` of the perceptron of the arrays the region finds. -/
theorem flushed_eq (c : Dev nD) (t : Fin cfg0.N) :
    (dats m 0 c).flushed 5 t = ((cfg0.win 5).blk t).view.read (Elt Ideal)
      (G (V m c main_v8) (V m c main_v9) (V m c main_v11) (V m c main_v10) (V m c main_v12)) := by
  have hN : cfg0.N = 128 := N_0
  have ht := t.isLt
  obtain ⟨T, hT⟩ : ∃ T : Fin 8, t.val / 16 = T.val := ⟨⟨t.val / 16, by omega⟩, rfl⟩
  obtain ⟨b, hb⟩ : ∃ b : Fin 16, t.val % 16 = b.val := ⟨⟨t.val % 16, by omega⟩, rfl⟩
  show (cfg0.win 5).cut (grid0.coords t) ((dats m 0 c).after 5 t) = _
  rw [after0_5]
  unfold out0_5
  rw [View.canon_unit_zero hz]
  simp only [View.ld_unit_zero (S := S1x4096x256) hz, View.ld_unit_zero (S := S1x256x256) hz,
    View.ld_unit_zero (S := S1x1x256) hz, View.ld_unit_zero (S := S1x256x128) hz, View.ld_unit_zero (S := S1x1x128) hz]
  funext j
  obtain ⟨u, p, q, rfl⟩ : ∃ (u : Fin 1) (p : Fin 4096) (q : Fin 128), j = ix3 u p q := ⟨j 0, j 1, j 2, eq_ix3 j⟩
  rw [View.read_apply]
  show k0_pay1 (F := Ideal) (iblk m c 0 t) (iblk m c 1 t) (iblk m c 2 t) (iblk m c 3 t) (iblk m c 4 t) (ix3 u p q)
    = G (V m c main_v8) (V m c main_v9) (V m c main_v11) (V m c main_v10) (V m c main_v12) (((cfg0.win 5).blk t).view.emb (ix3 u p q))
  rw [out_emb t T b hT hb u p q]
  refine (Payload.pay_apply (iblk m c 0 t) (iblk m c 1 t) (iblk m c 2 t) (iblk m c 3 t) (iblk m c 4 t) u p q).trans ?_
  unfold G
  rw [mlp_ix3]
  unfold mlpAt hiddenAt
  exact congrArg₂ (· + ·) (Finset.sum_congr rfl fun f _ => congrArg₂ (· * ·)
      (congrArg (fun s => max s zeroWord) (congrArg₂ (· + ·)
        (Finset.sum_congr rfl fun e _ => congrArg₂ (· * ·) (rows_apply m c t T b hT hb p e) (w1_apply m c t T b hT hb e f))
        (b1_apply m c t T b hT hb f)))
      (w2_apply m c t T b hT hb f q))
    (b2_apply m c t T b hT hb q)

/-! ## The blocks tile the array -/

/-- An index of the output array is in point `t`'s block iff each coordinate is in the block's range on its axis. -/
theorem mem_blk (t : Fin cfg0.N) (i : S8x65536x128.Idx) :
    i ∈ ((cfg0.win 5).blk t).view.set ↔ ∀ a : Fin 3, win0_5.index t a * S1x4096x128.size a ≤ (i a).val
      ∧ (i a).val < win0_5.index t a * S1x4096x128.size a + S1x4096x128.size a := by
  show i ∈ ((View.whole main_v13).slice (win0_5.rect t)).set ↔ _
  rw [View.set_slice_whole, Rect.mem_set_unit]
  exact Iff.rfl

/-- Every index `(T, r, g)` of the output array is in the block of the point `16 T + r / 4096`, which is written back. -/
theorem cover (i : S8x65536x128.Idx) :
    ∃ t : Fin cfg0.N, (cfg0.win 5).flush t = true ∧ i ∈ ((cfg0.win 5).blk t).view.set := by
  have hN : cfg0.N = 128 := N_0
  have h0 : (i 0).val < 8 := (i 0).isLt
  have h1 : (i 1).val < 65536 := (i 1).isLt
  have h2 : (i 2).val < 128 := (i 2).isLt
  obtain ⟨t, ht⟩ : ∃ t : Fin cfg0.N, t.val = (i 0).val * 16 + (i 1).val / 4096 :=
    ⟨⟨(i 0).val * 16 + (i 1).val / 4096, by omega⟩, rfl⟩
  refine ⟨t, flush0_5 t, ?_⟩
  obtain ⟨e0, e1, e2, -⟩ := idx_facts t
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 128 ≤ (i 2).val ∧ (i 2).val < win0_5.index t (2 : Fin 3) * 128 + 128; omega

/-- THE OUTPUT ARRAY AFTER THE REGION is the perceptron of the five arrays the region finds. -/
theorem final (c : Dev nD) : (dats m 0 c).arrAt 5 cfg0.N
    = G (V m c main_v8) (V m c main_v9) (V m c main_v11) (V m c main_v10) (V m c main_v12) :=
  (dats m 0 c).arrAt_eq_of_cover 5 _ (fun t _ => flushed_eq m c t) cover

end Cert.KernelIdeal.Blocks

end
-- ==== Proof.KernelHost.lean ====
/-
  The host lines around the region, read as values.

  Before the region the program wraps negative row indices, gathers the two operand rows of every item from the
  node table, lays each pair side by side as one row of 256 features, rounds the rows and the two weight arrays to
  the narrower float format (the identity over the extended reals), and inserts a unit axis into each bias array.
  After the region it flattens the `[8, 65536, 128]` output to `[524288, 128]`, wraps negative destination
  indices, and scatters the rows into the node table. This module states what each array the region reads holds
  when the region is entered, and what the program's result holds, as terms of the argument arrays and of the
  region's output array.
-/
import proofs.«135676_j24068996726969_1_alg».proof.Proof.Gen.KernelIdeal.Frame
import Idealize.ShloMosaic.Lib.StableHlo.Run
import Idealize.ShloMosaic.Lib.Pipeline.Value
import Idealize.ShloMosaic.PureOps.Ideal.Laws

noncomputable section

open Idealize.ShloMosaic Idealize.ShloMosaic.TcCoe Idealize.SL.Sem Idealize.ShloMosaic.StableHlo
open Idealize.ShloMosaic.Pipeline (Dat)

namespace Cert.KernelIdeal.HostSide

open Cert.KernelIdeal Cert.KernelIdeal.Gen

variable (m : (ℓ : Loc nD τ sig) → Buf (Elt Ideal) ℓ) (ρ : Dev nD → PrngReg)

/-- The gathered operand rows, each item's pair laid side by side: `[8, 65536, 256]`. -/
def rowsK (x0 : (⟨S1000000x128, .f32⟩ : BufTy).Contents (Elt Ideal)) (x5 : (⟨S8x65536x2, .i32⟩ : BufTy).Contents (Elt Ideal)) :
    (⟨S8x65536x256, .f32⟩ : BufTy).Contents (Elt Ideal) :=
  shapeCast _ (Host.gather gather_S1000000x128_S8x65536x2x1_S8x65536x2x128_3_0_n_n_0_3_1128 x0
    (broadcastInDim S8x65536x2x1 ![0, 1, 2] bcast_S8x65536x2_S8x65536x2x1_0_1_2
      (select (cmpi .slt x5 (broadcastInDim S8x65536x2 ![] bcast_S_S8x65536x2 (constantI S_ 32 0#32)))
        (addi x5 (broadcastInDim S8x65536x2 ![] bcast_S_S8x65536x2 (constantI S_ 32 1000000#32))) x5)))
    shapeCasts_S8x65536x2x128_S8x65536x256

/-- The program's result from the node table, the destination indices and the region's output: the output's rows
    scattered into the table at the wrapped destination indices. -/
def tailK (x0 : (⟨S1000000x128, .f32⟩ : BufTy).Contents (Elt Ideal)) (x6 : (⟨S8x65536, .i32⟩ : BufTy).Contents (Elt Ideal))
    (out : (⟨S8x65536x128, .f32⟩ : BufTy).Contents (Elt Ideal)) : (⟨S1000000x128, .f32⟩ : BufTy).Contents (Elt Ideal) :=
  Host.scatter scatter_S1000000x128_S524288x1_S524288x128_1_0_0_1 (fun _ b => b) x0
    (broadcastInDim S524288x1 ![0] bcast_S524288_S524288x1_0
      (select (cmpi .slt (shapeCast _ x6 shapeCasts_S8x65536_S524288) (broadcastInDim S524288 ![] bcast_S_S524288 (constantI S_ 32 0#32)))
        (addi (shapeCast _ x6 shapeCasts_S8x65536_S524288) (broadcastInDim S524288 ![] bcast_S_S524288 (constantI S_ 32 1000000#32)))
        (shapeCast _ x6 shapeCasts_S8x65536_S524288)))
    (shapeCast _ out shapeCasts_S8x65536x128_S524288x128)

/-! ## The arrays the region reads, when it is entered -/

/-- The row array: the gathered rows, rounded. -/
theorem V_rows (c : Dev nD) : (V m c main_v8 : S8x65536x256.Idx → Elt Ideal .bf16)
    = (truncf .bf16 (rowsK (m ((c : Thread nD τ).loc main_arg0)) (m ((c : Thread nD τ).loc main_arg5))) bitsLt_bf16_f32 : FVec Ideal S8x65536x256 .bf16) := by
  show StableHlo.after hostOps0 (fun b => m (c, b)) (Proc.devRef .tc main_v8) = _
  after_results
  rfl

/-- The first weights, rounded. -/
theorem V_w1 (c : Dev nD) : (V m c main_v9 : S8x256x256.Idx → Elt Ideal .bf16)
    = (truncf .bf16 (m ((c : Thread nD τ).loc main_arg1) : FVec Ideal S8x256x256 .f32) bitsLt_bf16_f32 : FVec Ideal S8x256x256 .bf16) := by
  show StableHlo.after hostOps0 (fun b => m (c, b)) (Proc.devRef .tc main_v9) = _
  after_results

/-- The second weights, rounded. -/
theorem V_w2 (c : Dev nD) : (V m c main_v10 : S8x256x128.Idx → Elt Ideal .bf16)
    = (truncf .bf16 (m ((c : Thread nD τ).loc main_arg3) : FVec Ideal S8x256x128 .f32) bitsLt_bf16_f32 : FVec Ideal S8x256x128 .bf16) := by
  show StableHlo.after hostOps0 (fun b => m (c, b)) (Proc.devRef .tc main_v10) = _
  after_results

/-- The first bias with a unit axis inserted. -/
theorem V_b1 (c : Dev nD) : (V m c main_v11 : S8x1x256.Idx → Elt Ideal .f32)
    = shapeCast S8x1x256 (m ((c : Thread nD τ).loc main_arg2)) shapeCasts_S8x256_S8x1x256 := by
  show StableHlo.after hostOps0 (fun b => m (c, b)) (Proc.devRef .tc main_v11) = _
  after_results
  rfl

/-- The second bias with a unit axis inserted. -/
theorem V_b2 (c : Dev nD) : (V m c main_v12 : S8x1x128.Idx → Elt Ideal .f32)
    = shapeCast S8x1x128 (m ((c : Thread nD τ).loc main_arg4)) shapeCasts_S8x128_S8x1x128 := by
  show StableHlo.after hostOps0 (fun b => m (c, b)) (Proc.devRef .tc main_v12) = _
  after_results
  rfl

/-! ## The result, after the lines that follow the region -/

/-- The program's result is `tailK` of the node table and the destination indices as launched and of the region's
    output array: the lines after the region read the output array where the region left it, and the two arguments
    where no line before or inside the region wrote them. -/
theorem result_eq (c : Dev nD) :
    Pipeline.afterTail₀ cfgs (dats m) 0 (V0 m) [hostOps1] c main_v22
      = tailK (m ((c : Thread nD τ).loc main_arg0)) (m ((c : Thread nD τ).loc main_arg6)) ((dats m 0 c).arrAt 5 cfg0.N) := by
  have h13 : Pipeline.withArrays (cfgs 0).spec c (V0 m c) (fun w => (dats m 0 c).arrAt w (cfgs 0).N) (Proc.devRef .tc main_v13)
      = (dats m 0 c).arrAt 5 cfg0.N :=
    Pipeline.withArrays_arr spec0 launch0.win.arr_inj c (V0 m c) _ 5
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have h6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  unfold Pipeline.afterTail₀
  show StableHlo.after hostOps1 _ (Proc.devRef .tc main_v22) = _
  after_results
  rw [h13, h0, h6]
  rfl

end Cert.KernelIdeal.HostSide

end
-- ==== Proof.LibMiddleUnitAxis.lean ====
/-
  A unit axis inserted between two axes by a shape cast, read at an index.

  An `[a, b]` array cast to `[a, 1, b]` reads, at `(i, u, j)`, the operand at `(i, j)`: both indices have the
  same row-major position, `i · b + j`, since the middle coordinate of a unit axis is zero.
-/
import Idealize.ShloMosaic.Lib.ValueIdx
import Idealize.ShloMosaic.Lib.Pipeline.Value

noncomputable section

namespace Idealize.ShloMosaic.MiddleUnitAxis

open Idealize.ShloMosaic Idealize.ShloMosaic.ValueIdx

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.MiddleUnitAxis

end
-- ==== Proof.KernelRun.lean ====
/-
  The kernel program's run, read: its result is the node table with the perceptron's rows scattered into it.

  The region's output array is the perceptron of the five arrays the region reads (the blocks tile it); those
  arrays are the gathered rows, the weights and the biases, up to a rounding that is the identity over the extended
  reals and a unit axis that an index reads through; and the lines after the region scatter the output's rows into
  the node table.
-/
import proofs.«135676_j24068996726969_1_alg».proof.Proof.KernelBlocks
import proofs.«135676_j24068996726969_1_alg».proof.Proof.KernelHost
import proofs.«135676_j24068996726969_1_alg».proof.Proof.LibMiddleUnitAxis

noncomputable section

open scoped BigOperators
open Idealize.ShloMosaic Idealize.ShloMosaic.TcCoe Idealize.SL.Sem
open Idealize.ShloMosaic.Pipeline (Dat)

namespace Cert.KernelIdeal.KernelRun

open Cert.KernelIdeal Cert.KernelIdeal.Gen Idealize.ShloMosaic.ValueIdx Cert.Mlp Cert.KernelIdeal.HostSide

/-- The program's result as a function of its seven argument arrays: gather, perceptron, scatter. -/
def resultOf (x0 : (⟨S1000000x128, .f32⟩ : BufTy).Contents (Elt Ideal)) (x1 : (⟨S8x256x256, .f32⟩ : BufTy).Contents (Elt Ideal))
    (x2 : (⟨S8x256, .f32⟩ : BufTy).Contents (Elt Ideal)) (x3 : (⟨S8x256x128, .f32⟩ : BufTy).Contents (Elt Ideal))
    (x4 : (⟨S8x128, .f32⟩ : BufTy).Contents (Elt Ideal)) (x5 : (⟨S8x65536x2, .i32⟩ : BufTy).Contents (Elt Ideal))
    (x6 : (⟨S8x65536, .i32⟩ : BufTy).Contents (Elt Ideal)) : (⟨S1000000x128, .f32⟩ : BufTy).Contents (Elt Ideal) :=
  tailK x0 x6 (mlp (fun t r e => rowsK x0 x5 (ix3 t r e)) (fun t e f => x1 (ix3 t e f)) (fun t f => x2 (ix2 t f))
    (fun t f g => x3 (ix3 t f g)) (fun t g => x4 (ix2 t g)))

variable (m : (ℓ : Loc nD τ sig) → Buf (Elt Ideal) ℓ) (ρ : Dev nD → PrngReg)

/-- THE REGION'S OUTPUT ARRAY is the perceptron of the gathered rows, the weights and the biases as launched. -/
theorem out_eq (c : Dev nD) : (dats m 0 c).arrAt 5 cfg0.N
    = mlp (fun t r e => rowsK (m ((c.tc : Thread nD τ).loc main_arg0)) (m ((c.tc : Thread nD τ).loc main_arg5)) (ix3 t r e))
        (fun t e f => (m ((c.tc : Thread nD τ).loc main_arg1) : S8x256x256.Idx → Elt Ideal .f32) (ix3 t e f))
        (fun t f => (m ((c.tc : Thread nD τ).loc main_arg2) : S8x256.Idx → Elt Ideal .f32) (ix2 t f))
        (fun t f g => (m ((c.tc : Thread nD τ).loc main_arg3) : S8x256x128.Idx → Elt Ideal .f32) (ix3 t f g))
        (fun t g => (m ((c.tc : Thread nD τ).loc main_arg4) : S8x128.Idx → Elt Ideal .f32) (ix2 t g)) := by
  rw [Blocks.final m c]
  unfold Blocks.G
  rw [V_rows m c, V_w1 m c, V_b1 m c, V_w2 m c, V_b2 m c]
  simp only [truncf_apply, MiddleUnitAxis.shapeCast_ab_a1b_apply]

/-- The run: the result at `resultOf` of the arguments as launched, the arguments unchanged. -/
theorem run : θ_run defs (onTc (τ := τ) (main (F := Ideal))) ⟨m, fun _ => 0, ρ⟩ fun r => ∀ c : Dev nD,
      r.2.mem ((c.tc : Thread nD τ).loc main_v22)
        = resultOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v22 (Pipeline.mem_restRefs_of main_v22 (by decide) (by decide))).trans
        ((result_eq m c).trans (congrArg (tailK _ _) (out_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KernelRun

end
-- ==== Proof.RefValue.lean ====
/-
  The reference's middle stages are the perceptron.

  The reference gathers the input rows, reshapes them to `[8, 65536, 256]`, and then computes, group by group,
  two batched matrix products with a bias added to each and a rectifier between them. Read at an index
  `(t, r, g)`, each batched product is a sum over its one contracted axis, each bias a row broadcast along the
  65536 rows, and the rectifier a maximum with the zero word: entry `(t, r, g)` is the perceptron's `mlpAt` of
  the gathered rows, the weights and the biases.
-/
import proofs.«135676_j24068996726969_1_alg».proof.Proof.Gen.ReferenceIdeal.Read
import proofs.«135676_j24068996726969_1_alg».proof.Proof.MlpSpec

noncomputable section

open scoped BigOperators

namespace Cert.ReferenceIdeal.RefValue

open Cert.ReferenceIdeal Cert.ReferenceIdeal.Read Idealize.ShloMosaic Idealize.ShloMosaic.ValueIdx Cert.Mlp

/-! ## The operand indices of the reads, by coordinates -/

theorem lidx13 (t : Fin 8) (r : Fin 65536) (g : Fin 128) (k : Fin 256) :
    lidx_main_v13 (ix3 t r g) k = ix3 t r k :=
  funext fun a => Fin.ext (by match a with | ⟨0, _⟩ => rfl | ⟨1, _⟩ => rfl | ⟨2, _⟩ => rfl)

theorem ridx13 (t : Fin 8) (r : Fin 65536) (g : Fin 128) (k : Fin 256) :
    ridx_main_v13 (ix3 t r g) k = ix3 t k g :=
  funext fun a => Fin.ext (by match a with | ⟨0, _⟩ => rfl | ⟨1, _⟩ => rfl | ⟨2, _⟩ => rfl)

theorem lidx8 (t : Fin 8) (r : Fin 65536) (f : Fin 256) (k : Fin 256) :
    lidx_main_v8 (ix3 t r f) k = ix3 t r k :=
  funext fun a => Fin.ext (by match a with | ⟨0, _⟩ => rfl | ⟨1, _⟩ => rfl | ⟨2, _⟩ => rfl)

theorem ridx8 (t : Fin 8) (r : Fin 65536) (f : Fin 256) (k : Fin 256) :
    ridx_main_v8 (ix3 t r f) k = ix3 t k f :=
  funext fun a => Fin.ext (by match a with | ⟨0, _⟩ => rfl | ⟨1, _⟩ => rfl | ⟨2, _⟩ => rfl)

/-- The first bias, broadcast twice, read at `(t, r, f)`: entry `(t, f)` of the bias. -/
theorem bias1 (t : Fin 8) (r : Fin 65536) (f : Fin 256) :
    idx_main_v9 (idx_main_v10 (ix3 t r f)) = ix2 t f :=
  funext fun a => Fin.ext (by match a with | ⟨0, _⟩ => rfl | ⟨1, _⟩ => rfl)

/-- The second bias, broadcast twice, read at `(t, r, g)`: entry `(t, g)` of the bias. -/
theorem bias2 (t : Fin 8) (r : Fin 65536) (g : Fin 128) :
    idx_main_v14 (idx_main_v15 (ix3 t r g)) = ix2 t g :=
  funext fun a => Fin.ext (by match a with | ⟨0, _⟩ => rfl | ⟨1, _⟩ => rfl)

/-! ## The stages, read -/

/-- The rectified hidden layer at `(t, r, f)`. -/
theorem hidden_apply (x0 : (⟨S1000000x128, .f32⟩ : BufTy).Contents (Elt Ideal)) (x1 : (⟨S8x256x256, .f32⟩ : BufTy).Contents (Elt Ideal))
    (x2 : (⟨S8x256, .f32⟩ : BufTy).Contents (Elt Ideal)) (x5 : (⟨S8x65536x2, .i32⟩ : BufTy).Contents (Elt Ideal))
    (t : Fin 8) (r : Fin 65536) (f : Fin 256) :
    val_main_v12 (F := Ideal) x0 x1 x2 x5 (ix3 t r f)
      = hiddenAt (fun t r e => val_main_v7 (F := Ideal) x0 x5 (ix3 t r e)) (fun t e f => x1 (ix3 t e f)) (fun t f => x2 (ix2 t f)) t r f := by
  rw [val_main_v12_apply, val_main_v11_apply, val_main_v8_apply, val_main_v10_apply, val_main_v9_apply,
    val_main_call0_v0_apply, val_main_call0_cst_apply, bias1]
  unfold hiddenAt
  simp only [lidx8, ridx8]
  rfl

/-- THE REFERENCE'S OUTPUT BEFORE THE SCATTER is the perceptron of the gathered rows. -/
theorem v16_eq (x0 : (⟨S1000000x128, .f32⟩ : BufTy).Contents (Elt Ideal)) (x1 : (⟨S8x256x256, .f32⟩ : BufTy).Contents (Elt Ideal))
    (x2 : (⟨S8x256, .f32⟩ : BufTy).Contents (Elt Ideal)) (x3 : (⟨S8x256x128, .f32⟩ : BufTy).Contents (Elt Ideal))
    (x4 : (⟨S8x128, .f32⟩ : BufTy).Contents (Elt Ideal)) (x5 : (⟨S8x65536x2, .i32⟩ : BufTy).Contents (Elt Ideal)) :
    val_main_v16 (F := Ideal) x0 x1 x2 x3 x4 x5
      = mlp (fun t r e => val_main_v7 (F := Ideal) x0 x5 (ix3 t r e)) (fun t e f => x1 (ix3 t e f)) (fun t f => x2 (ix2 t f))
          (fun t f g => x3 (ix3 t f g)) (fun t g => x4 (ix2 t g)) := by
  funext i
  obtain ⟨t, r, g, rfl⟩ : ∃ (t : Fin 8) (r : Fin 65536) (g : Fin 128), i = ix3 t r g := ⟨i 0, i 1, i 2, eq_ix3 i⟩
  rw [mlp_ix3, val_main_v16_apply, val_main_v13_apply, val_main_v15_apply, val_main_v14_apply, bias2]
  unfold mlpAt
  simp only [lidx13, ridx13, hidden_apply]
  rfl

end Cert.ReferenceIdeal.RefValue

end
-- ==== Proof.Bridge.lean ====
/-
  The two programs' host lines are the same functions.

  Both programs wrap negative indices, gather the operand rows and lay each pair side by side in the same words,
  and both flatten their output, wrap the destination indices and scatter in the same words: as functions of the
  arrays they are applied to, the two gathers are one function and the two scatters are one function. With the
  reference's middle stages equal to the perceptron, the reference's whole result is the kernel program's
  `resultOf` of the arguments.
-/
import proofs.«135676_j24068996726969_1_alg».proof.Proof.KernelRun
import proofs.«135676_j24068996726969_1_alg».proof.Proof.RefValue

noncomputable section

open Idealize.ShloMosaic Idealize.ShloMosaic.ValueIdx Cert.Mlp

namespace Cert.Bridge

/-- The reference's gathered rows are the kernel program's: the same operations of the node table and the indices. -/
theorem rows_eq (x0 : (⟨Cert.ReferenceIdeal.S1000000x128, .f32⟩ : BufTy).Contents (Elt Ideal)) (x5 : (⟨Cert.ReferenceIdeal.S8x65536x2, .i32⟩ : BufTy).Contents (Elt Ideal)) :
    Cert.ReferenceIdeal.Read.val_main_v7 (F := Ideal) x0 x5 = Cert.KernelIdeal.HostSide.rowsK x0 x5 := rfl

/-- The reference's scatter of an output array is the kernel program's: the same operations of the node table, the
    destination indices and the output. -/
theorem tail_eq (x0 : (⟨Cert.ReferenceIdeal.S1000000x128, .f32⟩ : BufTy).Contents (Elt Ideal)) (x6 : (⟨Cert.ReferenceIdeal.S8x65536, .i32⟩ : BufTy).Contents (Elt Ideal))
    (out : (⟨Cert.ReferenceIdeal.S8x65536x128, .f32⟩ : BufTy).Contents (Elt Ideal)) :
    Host.scatter Cert.ReferenceIdeal.scatter_S1000000x128_S524288x1_S524288x128_1_0_0_1 (fun _ b => b) x0 (Cert.ReferenceIdeal.Read.val_main_v24 (F := Ideal) x6)
        (shapeCast _ out Cert.ReferenceIdeal.Facts₀.shapeCasts_S8x65536x128_S524288x128)
      = Cert.KernelIdeal.HostSide.tailK x0 x6 out := rfl

/-- THE REFERENCE'S RESULT is the kernel program's `resultOf` of the same arguments. -/
theorem ref_result_eq (x0 : (⟨Cert.ReferenceIdeal.S1000000x128, .f32⟩ : BufTy).Contents (Elt Ideal)) (x1 : (⟨Cert.ReferenceIdeal.S8x256x256, .f32⟩ : BufTy).Contents (Elt Ideal))
    (x2 : (⟨Cert.ReferenceIdeal.S8x256, .f32⟩ : BufTy).Contents (Elt Ideal)) (x3 : (⟨Cert.ReferenceIdeal.S8x256x128, .f32⟩ : BufTy).Contents (Elt Ideal))
    (x4 : (⟨Cert.ReferenceIdeal.S8x128, .f32⟩ : BufTy).Contents (Elt Ideal)) (x5 : (⟨Cert.ReferenceIdeal.S8x65536x2, .i32⟩ : BufTy).Contents (Elt Ideal))
    (x6 : (⟨Cert.ReferenceIdeal.S8x65536, .i32⟩ : BufTy).Contents (Elt Ideal)) :
    Cert.ReferenceIdeal.Read.val_main_v25 (F := Ideal) x0 x1 x2 x3 x4 x5 x6 = Cert.KernelIdeal.KernelRun.resultOf x0 x1 x2 x3 x4 x5 x6 := by
  show Host.scatter Cert.ReferenceIdeal.scatter_S1000000x128_S524288x1_S524288x128_1_0_0_1 (fun _ b => b) x0 (Cert.ReferenceIdeal.Read.val_main_v24 (F := Ideal) x6)
        (shapeCast _ (Cert.ReferenceIdeal.Read.val_main_v16 (F := Ideal) x0 x1 x2 x3 x4 x5) Cert.ReferenceIdeal.Facts₀.shapeCasts_S8x65536x128_S524288x128) = _
  rw [Cert.ReferenceIdeal.RefValue.v16_eq, rows_eq]
  exact tail_eq x0 x6 _

end Cert.Bridge

end
-- ==== Proof.lean ====
/-
  The certificate of a grouped two-layer perceptron kernel against its einsum reference, over the extended reals.

  Both programs gather, for each of 8 groups and 65536 items, two rows of a node table and lay them side by side as
  one row of 256 features; compute, group by group, `max (x · W1 + b1) 0 · W2 + b2`; and scatter the resulting rows
  of 128 features back into the node table. The kernel program computes the middle part in a pallas_call over a grid
  of 8 × 16 points, each on one block of 4096 rows of one group, with the rows and the weights rounded to a narrower
  float format on the way in and the hidden layer rounded before the second product; the reference computes it by
  two batched contractions. Over the extended reals a change of float format is the identity and a matrix product
  into a zero accumulator is the plain sum over the contracted axis, so the two middle parts are the same function
  (`Cert.Mlp.mlp`), entry by entry, with no algebraic law needed beyond reading both sides at an index; the gather
  before and the scatter after are the same operations in both programs and are carried as they are.

  The frames of the two kernel programs are the generated ones; the reference's frame is its generated run with the
  result dropped; the ideal pass rewrote nothing, so `preserves` is trivial.
-/
import proofs.«135676_j24068996726969_1_alg».proof.Defs
import proofs.«135676_j24068996726969_1_alg».proof.Proof.Gen.Kernel
import proofs.«135676_j24068996726969_1_alg».proof.Proof.Gen.Kernel.Skeleton
import proofs.«135676_j24068996726969_1_alg».proof.Proof.Gen.Kernel.Launch
import proofs.«135676_j24068996726969_1_alg».proof.Proof.Gen.Kernel.Points
import proofs.«135676_j24068996726969_1_alg».proof.Proof.Gen.Kernel.Frame
import proofs.«135676_j24068996726969_1_alg».proof.Proof.Gen.KernelIdeal
import proofs.«135676_j24068996726969_1_alg».proof.Proof.Gen.KernelIdeal.Skeleton
import proofs.«135676_j24068996726969_1_alg».proof.Proof.Gen.KernelIdeal.Launch
import proofs.«135676_j24068996726969_1_alg».proof.Proof.Gen.KernelIdeal.Points
import proofs.«135676_j24068996726969_1_alg».proof.Proof.Gen.KernelIdeal.Frame
import proofs.«135676_j24068996726969_1_alg».proof.Proof.Gen.ReferenceIdeal
import proofs.«135676_j24068996726969_1_alg».proof.Proof.Gen.Pre_finite_inputs
import proofs.«135676_j24068996726969_1_alg».proof.Proof.Gen.ReferenceIdeal.Run
import proofs.«135676_j24068996726969_1_alg».proof.Proof.Gen.ReferenceIdeal.Read
import proofs.«135676_j24068996726969_1_alg».proof.Proof.KernelRun
import proofs.«135676_j24068996726969_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the node table scattered over by the perceptron's rows of the gathered rows, from
    arguments that agree: the kernel program by its run read through the grid's blocks, the reference by its run read
    stage by stage. -/
theorem algebraic : Cert.algebraic_KernelIdeal_ReferenceIdeal := by
  intro m ρ m' ρ' _ hagree
  refine ⟨fun c => Cert.KernelIdeal.KernelRun.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
  refine (Cert.Bridge.ref_result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
